-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S_S_d : S_.ReducesTo [] S_

variable [Facts]

def fn {F : FTy → Type} [FloatOps F] (main_arg0 : FVec F S8192x8192 .f32) (main_arg1 : FVec F S_ .f32) (main_arg2 : FVec F S_ .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S8192x8192 : Shape := ⟨2, ![8192, 8192]⟩
abbrev S_ : Shape := ⟨0, ![]⟩
abbrev S16x128 : Shape := ⟨2, ![16, 128]⟩
abbrev S512x8192 : Shape := ⟨2, ![512, 8192]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 11
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S_, .f32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  natLt_1_32 : 1 < 32
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel

variable [Facts₀]

class Facts : Prop extends Facts₀ where

variable [Facts]
-- ==== Proof.Pieces.lean ====
/-
  What each grid point leaves behind, as values.

  The kernel walks a 2 x 8 grid. Each point loads one block of 512 rows of `x`, and keeps a one-entry accumulator
  between points. The first point of each row of the grid clears the accumulator; every point adds the sum of its
  block to it; the last point of each row writes an 8 x 128 output block computed from the accumulator.
  The lemmas below say, for each of the three kinds of point, what the accumulator (and, at a last point, the output
  block) holds afterwards as a function of the loaded block and of the accumulator before: the stores found by running
  the body, read back. They hold for any interpretation of the floats.
-/
import proofs.«125413_j20572893348677_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first point of a row of the grid clears the accumulator and then adds the block's sum: the accumulator ends at
    the second store's value, computed from the block and from the cleared accumulator read back. -/
theorem sout_A (c : Dev nD) (i : grid0.Coords) (arg2 : Memref sig .tc .vmem S512x8192 .f32) (harg2 : arg2.IsWhole)
    (arg3 : Memref sig .tc .vmem S8x128 .f32) (harg3 : arg3.IsWhole) (arg4 : Memref sig .tc .vmem S1x1 .f32) (harg4 : arg4.IsWhole)
    (hc0 : cond0_0 i) (hc1 : ¬cond0_1 i) (x0 : Vec F S512x8192 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1x1) hz, View.readCov_unit_zero (S := S1x1) _ hz]
  simp only [View.readAt_eq_ld, harg2.read_unread, View.ld_unit_zero (S := S512x8192) hz]

/-- A middle point adds the block's sum to what the point before left in the accumulator. -/
theorem sout_B (c : Dev nD) (i : grid0.Coords) (arg2 : Memref sig .tc .vmem S512x8192 .f32) (harg2 : arg2.IsWhole)
    (arg3 : Memref sig .tc .vmem S8x128 .f32) (harg3 : arg3.IsWhole) (arg4 : Memref sig .tc .vmem S1x1 .f32) (harg4 : arg4.IsWhole)
    (hc0 : ¬cond0_0 i) (hc1 : ¬cond0_1 i) (x0 : Vec F S512x8192 .f32) (xs0 : Vec F S1x1 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz]
  simp only [View.readAt_eq_ld, harg2.read_unread, harg4.read_unread, View.ld_unit_zero (S := S512x8192) hz,
    View.ld_unit_zero (S := S1x1) hz]

/-- The last point of a row of the grid does the same to the accumulator … -/
theorem sout_C (c : Dev nD) (i : grid0.Coords) (arg2 : Memref sig .tc .vmem S512x8192 .f32) (harg2 : arg2.IsWhole)
    (arg3 : Memref sig .tc .vmem S8x128 .f32) (harg3 : arg3.IsWhole) (arg4 : Memref sig .tc .vmem S1x1 .f32) (harg4 : arg4.IsWhole)
    (hc0 : ¬cond0_0 i) (hc1 : cond0_1 i) (x0 : Vec F S512x8192 .f32) (xs0 : Vec F S1x1 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S512x8192) hz,
    View.ld_unit_zero (S := S1x1) hz]

/-- … and writes the output block from the accumulator it has just updated. -/
theorem out_C (c : Dev nD) (i : grid0.Coords) (arg2 : Memref sig .tc .vmem S512x8192 .f32) (harg2 : arg2.IsWhole)
    (arg3 : Memref sig .tc .vmem S8x128 .f32) (harg3 : arg3.IsWhole) (arg4 : Memref sig .tc .vmem S1x1 .f32) (harg4 : arg4.IsWhole)
    (hc0 : ¬cond0_0 i) (hc1 : cond0_1 i) (x0 : Vec F S512x8192 .f32) (xs0 : Vec F S1x1 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz, View.readCov_unit_zero (S := S1x1) _ hz]
  simp only [View.readAt_eq_ld, harg2.read_unread, harg4.read_unread, View.ld_unit_zero (S := S512x8192) hz,
    View.ld_unit_zero (S := S1x1) hz]

end Cert.KernelIdeal.Pieces
end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibColumnSum.lean ====
/-
  The column sums of a matrix, read at an index at the exact extended reals: a general lemma.

  A sum-reduction of an `[a, b]` array over its row axis (axis 0) leaves a vector `[b]`; its entry `q` is the sum over
  the rows `k` of the array at `(k, q)`.
-/
import Idealize.ShloMosaic.PureOps.Ideal
import Idealize.ShloMosaic.PureOps.Ideal.Laws
import Idealize.ShloMosaic.Lib.ValueIdx

noncomputable section

namespace Cert.LibColumnSum

open Idealize.ShloMosaic Idealize.ShloMosaic.ValueIdx

variable {a b : ℕ}

/-- The index of the matrix over entry `q` of the reduced vector, with row coordinate `k` put back, is `(k, q)`. -/
theorem lift_eq (h : (⟨2, ![a, b]⟩ : Shape).Reduces [0] (⟨1, ![b]⟩ : Shape)) (q : Fin b) (k : Fin a) :
    h.lift (ix1 q) k = ix2 k q := by
  funext c
  apply Fin.ext
  refine (h.lift_val (ix1 q) k c).trans ?_
  unfold Shape.Reduces.liftVal
  match c with
  | ⟨0, _⟩ => rfl
  | ⟨1, _⟩ => rfl

/-- Entry `q` of the column sums is the sum over the rows of column `q`. -/
theorem colSum_apply {φ : FTy} (src : FVec Ideal (⟨2, ![a, b]⟩ : Shape) φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] (⟨1, ![b]⟩ : Shape) src acc h hφ hacc (ix1 q) = ∑ k : Fin a, src (ix2 k q) := by
  refine (Ideal.multiReduction_add_single src acc h hφ hacc (ix1 q)).trans ?_
  exact Finset.sum_congr rfl fun k _ => congrArg src (lift_eq h q k)

end Cert.LibColumnSum

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.Payloads.lean ====
/-
  The body's three stored values read at an index, at the exact extended reals.

  * The value stored when the accumulator is cleared is `0`.
  * The value stored into the accumulator at every point is the accumulator's old entry plus the sum of the loaded
    512 x 8192 block: the block is summed along its rows (a vector of 512 row sums), that vector is kept as a column
    and summed down (one number), and the number is added to the old entry.
  * The output block is the accumulator's entry times a mask that is `1` at position (0, 0); so at (0, 0) the output
    block holds the accumulator's entry itself.
-/
import proofs.«125413_j20572893348677_2_alg».proof.Proof.Gen.KernelIdeal.Skeleton
import proofs.«125413_j20572893348677_2_alg».proof.Proof.LibRank3Layout
import proofs.«125413_j20572893348677_2_alg».proof.Proof.LibColumnSum
import proofs.«125413_j20572893348677_2_alg».proof.Proof.LibVectorColumn
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx

/-- A 1 x 1 array has one index. -/
theorem idx11_eq (i : S1x1.Idx) : i = ix2 (0 : Fin 1) (0 : Fin 1) := by
  funext d
  have h0 := idx2_lt0 i
  have h1 := idx2_lt1 i
  match d with
  | ⟨0, _⟩ => exact Fin.ext (by show (i 0).val = 0; omega)
  | ⟨1, _⟩ => exact Fin.ext (by show (i 1).val = 0; omega)

/-- The value stored when the accumulator is cleared is `0`. -/
theorem cleared_apply (i : S1x1.Idx) : k0_pay1 (F := Ideal) i = 0 := by
  unfold k0_pay1
  rw [shapeCast_self]
  exact Ideal.ofBits_zero_f32

/-- The value stored into the accumulator: its old entry plus the sum of the block, rows first, then down the column
    of row sums. -/
theorem accumulated_apply (x0 : FVec Ideal S512x8192 .f32) (xs0 : FVec Ideal S1x1 .f32) (i : S1x1.Idx) :
    k0_pay2 x0 xs0 i = xs0 i + ∑ r : Fin 512, ∑ q : Fin 8192, x0 (ix2 r q) := by
  obtain rfl := idx11_eq i
  unfold k0_pay2
  dsimp only
  rw [shapeCast_self, addf_apply]
  refine congrArg (xs0 (ix2 (0 : Fin 1) (0 : Fin 1)) + ·) ?_
  refine (Cert.LibVectorColumn.shapeCast_a_a1_apply _ _ (0 : Fin 1) (0 : Fin 1)).trans ?_
  refine (Cert.LibColumnSum.colSum_apply _ _ _ _ _ (0 : Fin 1)).trans ?_
  refine Finset.sum_congr rfl fun r _ => ?_
  refine (Cert.LibVectorColumn.shapeCast_a_a1_apply _ _ r (0 : Fin 1)).trans ?_
  exact Cert.LibRank3.sum_row_apply _ _ _ _ _ r

/-- The mask's word at position (0, 0): both coordinates equal zero, so the conjunction is the bit `1`. -/
theorem mask_word : BitVec.setWidth 32 (IntOp.andi (IntOp.cmpi .eq (BitVec.ofNat 32 0) 0#32) (IntOp.cmpi .eq (BitVec.ofNat 32 0) 0#32)) = 1#32 := by
  decide

/-- The mask is `1` at position (0, 0). -/
theorem mask_origin :
    (sitofp .f32 (extui 32 (andi (cmpi .eq (iota .tc S8x128 32 [0] Facts₀.iota_S8x128_d0_w32) (broadcast S8x128 0#32))
      (cmpi .eq (iota .tc S8x128 32 [1] Facts₀.iota_S8x128_d1_w32) (broadcast S8x128 0#32))) Facts₀.natLt_1_32) : FVec Ideal S8x128 .f32)
      (ix2 (0 : Fin 8) (0 : Fin 128)) = 1 := by
  rw [sitofp_apply, extui_apply]
  show FloatOps.sitofp .f32 (BitVec.setWidth 32 (IntOp.andi
    (IntOp.cmpi .eq (iota .tc S8x128 32 [0] Facts₀.iota_S8x128_d0_w32 (ix2 (0 : Fin 8) (0 : Fin 128))) 0#32)
    (IntOp.cmpi .eq (iota .tc S8x128 32 [1] Facts₀.iota_S8x128_d1_w32 (ix2 (0 : Fin 8) (0 : Fin 128))) 0#32))) = 1
  rw [iota_single_apply, iota_single_apply]
  show FloatOps.sitofp (F := Ideal) .f32 (BitVec.setWidth 32 (IntOp.andi (IntOp.cmpi .eq (BitVec.ofNat 32 0) 0#32) (IntOp.cmpi .eq (BitVec.ofNat 32 0) 0#32))) = 1
  rw [mask_word]
  show (((1#32 : BitVec 32).toInt : ℝ) : EReal) = 1
  rw [show (1#32 : BitVec 32).toInt = 1 from by decide]
  norm_num

/-- The output block at position (0, 0) is the accumulator's entry (times the mask's `1`). -/
theorem output_origin (v : FVec Ideal S1x1 .f32) :
    k0_pay3 v (ix2 (0 : Fin 8) (0 : Fin 128)) = v (ix2 (0 : Fin 1) (0 : Fin 1)) := by
  unfold k0_pay3
  rw [mulf_apply, mask_origin, mul_one, shapeCast_self]
  refine broadcastTo_apply v _ _ (ix2 (0 : Fin 1) (0 : Fin 1)) fun a => ?_
  match a with
  | ⟨0, _⟩ => show (0 : ℕ) = if (1 : ℕ) = 1 then 0 else _; rw [if_pos rfl]
  | ⟨1, _⟩ => show (0 : ℕ) = if (1 : ℕ) = 1 then 0 else _; rw [if_pos rfl]

end Cert.KernelIdeal.Payloads
end
-- ==== Proof.SumLaws.lean ====
/-
  An accumulator that is cleared every eight steps, in any commutative additive monoid (the extended reals with
  their addition among them: no finiteness is needed, only that addition commutes and associates and that `0` is
  neutral).

  At step `n` the accumulator takes `0 + B n` when `n` is a multiple of eight and adds `B n` to what it held
  otherwise. After step `n` it holds the sum of the `B`s of its own run of eight, from the last multiple of eight
  up to `n`; so what it holds after steps 7 and 15, added, is the sum of `B 0, …, B 15`.
-/
import Mathlib.Algebra.BigOperators.Fin
import Mathlib.Algebra.BigOperators.Intervals

namespace Cert.SumLaws

variable {A : Type} [AddCommMonoid A]

/-- The accumulator after step `n`: cleared (then fed `B n`) at the multiples of eight, fed `B n` otherwise. -/
def runSum (B : ℕ → A) : ℕ → A
  | 0 => 0 + B 0
  | n + 1 => if (n + 1) % 8 = 0 then 0 + B (n + 1) else runSum B n + B (n + 1)

theorem runSum_zero (B : ℕ → A) : runSum B 0 = 0 + B 0 := rfl

theorem runSum_reset (B : ℕ → A) (n : ℕ) (h : (n + 1) % 8 = 0) : runSum B (n + 1) = 0 + B (n + 1) := by
  rw [runSum, if_pos h]

theorem runSum_step (B : ℕ → A) (n : ℕ) (h : ¬(n + 1) % 8 = 0) : runSum B (n + 1) = runSum B n + B (n + 1) := by
  rw [runSum, if_neg h]

/-- After step `n` the accumulator holds the `B`s from the last multiple of eight up to `n`. -/
theorem runSum_eq (B : ℕ → A) (n : ℕ) :
    runSum B n = ∑ s ∈ Finset.range (n % 8 + 1), B (n - n % 8 + s) := by
  induction n with
  | zero => rw [runSum_zero, zero_add]; simp
  | succ n ih =>
    by_cases h : (n + 1) % 8 = 0
    · rw [runSum_reset B n h, zero_add, h]; simp
    · have h1 : (n + 1) % 8 = n % 8 + 1 := by omega
      have h2 : n + 1 - (n % 8 + 1) = n - n % 8 := by omega
      have h3 : n - n % 8 + (n % 8 + 1) = n + 1 := by have := Nat.mod_le n 8; omega
      rw [runSum_step B n h, ih, h1, h2, Finset.sum_range_succ _ (n % 8 + 1), h3]

/-- The two runs of eight together: what the accumulator holds after step 7 plus what it holds after step 15 is the sum
    of all sixteen `B`s. -/
theorem runSum_two_runs (B : ℕ → A) : runSum B 7 + runSum B 15 = ∑ s ∈ Finset.range 16, B s := by
  rw [runSum_eq, runSum_eq]
  show ∑ s ∈ Finset.range 8, B (0 + s) + ∑ s ∈ Finset.range 8, B (8 + s) = ∑ s ∈ Finset.range (8 + 8), B s
  rw [Finset.sum_range_add]
  simp only [zero_add]

end Cert.SumLaws
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.Accum.lean ====
/-
  What the accumulator holds after each grid point, and what the two write-backs put at the corner of their blocks.

  Point `n` of the grid (0 ≤ n < 16, in launch order) loads rows 512 n … 512 n + 511 of `x` and adds their sum to the
  accumulator, which is cleared at points 0 and 8. So after point `n` the accumulator holds the block sums of its
  own half up to `n` (the cleared-every-eight running sum of SumLaws), by induction on the point over the three
  kinds of point. Points 7 and 15 write an output block whose corner entry is the accumulator: the sum of the first
  eight blocks, and of the last eight.
-/
import proofs.«125413_j20572893348677_2_alg».proof.Proof.Pieces
import proofs.«125413_j20572893348677_2_alg».proof.Proof.Payloads
import proofs.«125413_j20572893348677_2_alg».proof.Proof.SumLaws
import proofs.«125413_j20572893348677_2_alg».proof.Proof.LibBlockedSum

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.SumLaws

variable (m : (ℓ : Loc nD τ sig) → Buf (Elt Ideal) ℓ)

/-- The sum of all entries of a 512 x 8192 block, rows first. -/
def blockSum (x0 : FVec Ideal S512x8192 .f32) : EReal := ∑ r : Fin 512, ∑ q : Fin 8192, x0 (ix2 r q)

/-- What point `n` adds to the accumulator: the sum of the block it loads (`0` past the grid, where nothing runs). -/
def addend (c : Dev nD) (n : ℕ) : EReal := if h : n < cfg0.N then blockSum (iblk m c 0 ⟨n, h⟩) else 0

theorem addend_of_lt (c : Dev nD) (n : ℕ) (h : n < cfg0.N) : addend m c n = blockSum (iblk m c 0 ⟨n, h⟩) := dif_pos h

/-- The accumulator's one index. -/
abbrev o11 : S1x1.Idx := ix2 (0 : Fin 1) (0 : Fin 1)

/-- A clearing point leaves `0` plus its block's sum; -/
theorem first_val (x0 : FVec Ideal S512x8192 .f32) : k0_pay2 (F := Ideal) x0 (k0_pay1 (F := Ideal)) o11 = 0 + blockSum x0 := by
  rw [Payloads.accumulated_apply, Payloads.cleared_apply]; rfl

/-- any other point leaves what it found plus its block's sum. -/
theorem next_val (x0 : FVec Ideal S512x8192 .f32) (xs0 : FVec Ideal S1x1 .f32) :
    k0_pay2 (F := Ideal) x0 xs0 o11 = xs0 o11 + blockSum x0 := Payloads.accumulated_apply x0 xs0 o11

/-- After point `n` the accumulator holds the running sum, cleared every eight points, of the block sums. -/
theorem acc_eq (c : Dev nD) : ∀ (n : ℕ) (hn : n < cfg0.N), (outsAt0 m c n hn).2 o11 = runSum (addend m c) n
  | 0, hn => by
    rw [outsAt0_A m c ⟨0, hn⟩ rfl (show ¬(0 % 8 = 7) by decide)]
    dsimp only
    rw [Pieces.sout_A, first_val, runSum_zero, addend_of_lt m c 0 hn]
  | n + 1, hn => by
    by_cases h0 : (n + 1) % 8 = 0
    · have h1 : ¬(n + 1) % 8 = 7 := by omega
      rw [outsAt0_A m c ⟨n + 1, hn⟩ h0 h1]
      dsimp only
      rw [Pieces.sout_A, first_val, runSum_reset _ _ h0, addend_of_lt m c (n + 1) hn]
    · by_cases h1 : (n + 1) % 8 = 7
      · rw [outsAt0_C m c ⟨n + 1, hn⟩ h0 h1]
        dsimp only
        rw [Pieces.sout_C, next_val, runSum_step _ _ h0, addend_of_lt m c (n + 1) hn]
        show (outsAt0 m c n _).2 o11 + _ = _
        rw [acc_eq c n]
      · rw [outsAt0_B m c ⟨n + 1, hn⟩ h0 h1]
        dsimp only
        rw [Pieces.sout_B, next_val, runSum_step _ _ h0, addend_of_lt m c (n + 1) hn]
        show (outsAt0 m c n _).2 o11 + _ = _
        rw [acc_eq c n]

/-- A point that writes its output block (the last of its half) puts the accumulator at the block's corner. -/
theorem out_corner (c : Dev nD) (t : Fin cfg0.N) (ht : t.val % 8 = 7) :
    (outsAt0 m c t.val t.isLt).1 (ix2 (0 : Fin 8) (0 : Fin 128)) = runSum (addend m c) t.val := by
  have h0 : ¬t.val % 8 = 0 := by omega
  have e := acc_eq m c t.val t.isLt
  rw [outsAt0_C m c t h0 ht] at e ⊢
  dsimp only at e ⊢
  rw [Pieces.sout_C] at e
  rw [Pieces.out_C, Payloads.output_origin]
  exact e

/-- Where the input blocks sit: point `t` loads block row `t` (the grid's two coordinates `(t / 8, t % 8)` recombined),
    block column 0. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The array `x` as launched, as an array of extended reals. -/
abbrev xin (c : Dev nD) : FVec Ideal S8192x8192 .f32 := m ((c : Thread nD τ).loc main_arg0)

/-- Entry `(r, q)` of the block point `t` loads is entry `(512 t + r, q)` of `x`. -/
theorem iblk_apply (c : Dev nD) (t : Fin cfg0.N) (r : Fin 512) (q : Fin 8192) (hr : t.val * 512 + r.val < 8192) :
    (iblk m c 0 t : FVec Ideal S512x8192 .f32) (ix2 r q) = xin m c (ix2 ⟨t.val * 512 + r.val, hr⟩ q) := by
  obtain ⟨hi0, hi1⟩ := in_index t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t 0 * 512 + 1 * r.val = t.val * 512 + r.val; rw [hi0]; omega
  | ⟨1, _⟩ => show win0_0.index t 1 * 8192 + 1 * q.val = q.val; rw [hi1]; omega

/-- The two halves together are the whole array: what the accumulator holds after point 7 plus what it holds after
    point 15 is the sum of every entry of `x`. -/
theorem two_halves (c : Dev nD) :
    runSum (addend m c) 7 + runSum (addend m c) 15
      = ∑ p : Fin 8192, ∑ q : Fin 8192, xin m c (ix2 p q) := by
  have hN : cfg0.N = 16 := N_0
  rw [runSum_two_runs, Finset.sum_range]
  have hb : ∀ j : Fin 16, addend m c j.val
      = ∑ k : Fin 512, (fun p : Fin (16 * 512) => ∑ q : Fin 8192, xin m c (ix2 (n0 := 8192) p q))
          ⟨j.val * 512 + k.val, Cert.LibBlockedSum.pos_lt j k⟩ := by
    intro j
    rw [addend_of_lt m c j.val (by rw [hN]; exact j.isLt)]
    unfold blockSum
    exact Finset.sum_congr rfl fun k _ => Finset.sum_congr rfl fun q _ => iblk_apply m c _ k q _
  refine (Finset.sum_congr rfl fun j _ => hb j).trans ?_
  exact (Cert.LibBlockedSum.sum_blocks 16 512 (fun p : Fin (16 * 512) => ∑ q : Fin 8192, xin m c (ix2 (n0 := 8192) p q))).symm

end Cert.KernelIdeal.Accum
end
-- ==== Proof.Tail.lean ====
/-
  The host lines that follow the call: two one-entry slices of the call's 16 x 128 result, at (0, 0) and at (8, 0),
  each reshaped to a scalar; their sum; and the two multiplications by the scalar arguments. Read once from the
  program's run as one function `tail`, and then at the exact extended reals.
-/
import proofs.«125413_j20572893348677_2_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx

variable {F : FTy → Type} [FloatOps F]

/-- The host lines after the call, as one function of the call's 16 x 128 result `o` and the two scalars: the entries
    (0, 0) and (8, 0) of `o` — the two halves' partial sums — are added, and the sum is multiplied by `a`, then by `b`. -/
def tail (o : FVec F S16x128 .f32) (a b : FVec F S_ .f32) : FVec F S_ .f32 :=
  mulf (mulf (addf
    (shapeCast S_ (extractStridedSlice S1x1 ![0, 0] o Facts₀.slices_S16x128_S1x1_0_0) Facts₀.shapeCasts_S1x1_S_)
    (shapeCast S_ (extractStridedSlice S1x1 ![8, 0] o Facts₀.slices_S16x128_S1x1_8_0) Facts₀.shapeCasts_S1x1_S_)) a) b

variable (m : (ℓ : Loc nD τ sig) → Buf (Elt F) ℓ)

/-- What the program's result buffer holds after the host lines: `tail` of the call's result array and the two scalar
    arguments as launched. -/
theorem tail_eq (c : Dev nD) :
    Pipeline.afterTail₀ cfgs (dats m) 0 (V0 m) [hostOps1] c main_v7
      = tail ((dats m 0 c).arrAt 1 cfg0.N) (m ((c : Thread nD τ).loc main_arg1)) (m ((c : Thread nD τ).loc main_arg2)) := by
  unfold Pipeline.afterTail₀
  show StableHlo.after hostOps1 _ (Proc.devRef .tc main_v7) = _
  after_results
  have e0 : Pipeline.withArrays (cfgs 0).spec c (V0 m c) (fun w => (dats m 0 c).arrAt w (cfgs 0).N) (Proc.devRef .tc main_v0)
      = (dats m 0 c).arrAt 1 cfg0.N := Pipeline.withArrays_arr spec0 launch0.win.arr_inj c _ _ 1
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [e0, e1, e2]
  rfl

/-- At the exact extended reals the result is `((o(0,0) + o(8,0)) · a) · b`. -/
theorem tail_apply (o : FVec Ideal S16x128 .f32) (a b : FVec Ideal S_ .f32) (i : S_.Idx) :
    tail o a b i = (o (ix2 (0 : Fin 16) (0 : Fin 128)) + o (ix2 (8 : Fin 16) (0 : Fin 128))) * a i * b i := by
  unfold tail
  rw [mulf_apply, mulf_apply, addf_apply]
  have hs : ∀ (off : Fin 2 → Nat) (h : S16x128.Slices off S1x1) (r : Fin 16) (hr : off 0 = r.val) (h0 : off 1 = 0),
      shapeCast S_ (extractStridedSlice S1x1 off o h) Facts₀.shapeCasts_S1x1_S_ i = o (ix2 r (0 : Fin 128)) := by
    intro off h r hr h0
    refine (shapeCast_apply _ _ i (ix2 (0 : Fin 1) (0 : Fin 1)) ?_).trans ?_
    · have h1 : (S_.rowMajor i).val < S_.numel := (S_.rowMajor i).isLt
      have h2 : S_.numel = 1 := by decide
      rw [Shape.rowMajor_val_two]
      show 0 * _ + 0 = _
      omega
    · exact extractStridedSlice_apply off o h _ (ix2 r (0 : Fin 128)) (fun a => match a with
        | ⟨0, _⟩ => by show r.val = off 0 + 0; omega
        | ⟨1, _⟩ => by show 0 = off 1 + 0; omega)
  rw [hs ![0, 0] _ (0 : Fin 16) rfl rfl, hs ![8, 0] _ (8 : Fin 16) rfl rfl]

end Cert.KernelIdeal.Tail
end
-- ==== Proof.Spec.lean ====
/-
  The result both programs compute, as one function of the three arguments at the exact extended reals: the sum of
  every entry of `x`, times the scalar `a`, times the scalar `b`.
-/
import Idealize.ShloMosaic.PureOps.Ideal
import Idealize.ShloMosaic.Lib.ValueIdx

noncomputable section

namespace Cert.Spec

open Idealize.ShloMosaic Idealize.ShloMosaic.ValueIdx

/-- `(∑ over all (p, q) of x(p, q)) · a · b`, as a rank-0 array. -/
def scaledTotal (x : FVec Ideal ⟨2, ![8192, 8192]⟩ .f32) (a b : FVec Ideal ⟨0, ![]⟩ .f32) : FVec Ideal ⟨0, ![]⟩ .f32 :=
  fun i => (∑ p : Fin 8192, ∑ q : Fin 8192, x (ix2 p q)) * a i * b i

end Cert.Spec

end
-- ==== Proof.Result.lean ====
/-
  The kernel's program read as a value.

  The call's 16 x 128 result array is written twice: point 7 writes rows 0–7 and point 15 rows 8–15. Each write puts
  the accumulator at its block's corner, so entry (0, 0) of the array ends at the sum of the first half of `x` and
  entry (8, 0) at the sum of the second half (entries elsewhere are not needed). The host lines then add the two and
  scale by `a` and `b`: the program's result is the sum of all of `x`, times `a`, times `b`.
-/
import proofs.«125413_j20572893348677_2_alg».proof.Proof.Accum
import proofs.«125413_j20572893348677_2_alg».proof.Proof.Tail
import proofs.«125413_j20572893348677_2_alg».proof.Proof.Spec

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.SumLaws Cert.KernelIdeal.Accum

variable (m : (ℓ : Loc nD τ sig) → Buf (Elt Ideal) ℓ) (ρ : Dev nD → PrngReg)

/-- Where the output blocks sit: point `t` writes block row `t / 8`, block column 0; -/
theorem out_index : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- and every output block is a full 8 x 128 one. -/
theorem out_xsize : ∀ t : Fin cfg0.N, win0_1.xsize (grid0.coords t) (0 : Fin 2) = 8 ∧ win0_1.xsize (grid0.coords t) (1 : Fin 2) = 128 :=
  (by decide +kernel : ∀ t : Fin grid0.N, win0_1.xsize (grid0.coords t) (0 : Fin 2) = 8 ∧ win0_1.xsize (grid0.coords t) (1 : Fin 2) = 128)

/-- What is claimed of an entry of the result array: if it is the corner of a block (column 0, row a multiple of 8),
    it holds the accumulator as the last point of that block's half left it. -/
def Corner (c : Dev nD) (i : S16x128.Idx) (v : EReal) : Prop :=
  (i 1).val = 0 → (i 0).val % 8 = 0 → v = runSum (addend m c) ((i 0).val + 7)

/-- Every entry a point writes back has that property. -/
theorem flushed_corner (c : Dev nD) (t : Fin cfg0.N) (hf : (cfg0.win 1).flush t = true)
    (y : ((cfg0.win 1).xblock (cfg0.grid.coords t)).Idx) :
    Corner m c (((cfg0.win 1).blk t).view.emb y)
      (_root_.cast (congrArg (Elt Ideal) ((cfg0.win 1).blk t).view.elt_eq.symm) ((dats m 0 c).flushed 1 t y)) := by
  intro h1 h0
  have ht : t.val % 8 = 7 := (flush0_1 t).mp hf
  obtain ⟨hi0, hi1⟩ := out_index t
  obtain ⟨hx0, hx1⟩ := out_xsize t
  have e0 : (((cfg0.win 1).blk t).view.emb y (0 : Fin 2)).val = win0_1.index t 0 * 8 + 1 * (y 0).val := rfl
  have e1 : (((cfg0.win 1).blk t).view.emb y (1 : Fin 2)).val = win0_1.index t 1 * 128 + 1 * (y 1).val := rfl
  have hy0 : (y 0).val < 8 := lt_of_lt_of_eq (y 0).isLt hx0
  rw [e1, hi1] at h1
  rw [e0, hi0] at h0
  have y0 : (y 0).val = 0 := by omega
  have y1 : (y 1).val = 0 := by omega
  rw [e0, hi0, y0]
  show (dats m 0 c).after 1 t ((cfg0.win 1).xinj (cfg0.grid.coords t) y) = _
  rw [after0_1]
  have hxy : (cfg0.win 1).xinj (cfg0.grid.coords t) y = ix2 (0 : Fin 8) (0 : Fin 128) :=
    funext fun a => Fin.ext (match a with | ⟨0, _⟩ => y0 | ⟨1, _⟩ => y1)
  rw [hxy, out_corner m c t ht]
  congr 1
  omega

/-- An entry in rows `8 (t / 8) … 8 (t / 8) + 7` is in the block point `t` writes. -/
theorem mem_blk (t : Fin cfg0.N) (i : S16x128.Idx) (h0 : t.val / 8 * 8 ≤ (i 0).val) (h0' : (i 0).val < t.val / 8 * 8 + 8) :
    i ∈ ((cfg0.win 1).blk t).view.set := by
  obtain ⟨hi0, hi1⟩ := out_index t
  obtain ⟨hx0, hx1⟩ := out_xsize t
  show i ∈ ((View.whole main_v0).slice (win0_1.rect t)).set
  rw [View.set_slice_whole, Rect.mem_set_unit]
  intro a
  match a with
  | ⟨0, _⟩ =>
    show win0_1.index t 0 * 8 ≤ (i 0 : Nat) ∧ (i 0 : Nat) < win0_1.index t 0 * 8 + win0_1.xsize (grid0.coords t) 0
    rw [hi0, hx0]; exact ⟨h0, h0'⟩
  | ⟨1, _⟩ =>
    show win0_1.index t 1 * 128 ≤ (i 1 : Nat) ∧ (i 1 : Nat) < win0_1.index t 1 * 128 + win0_1.xsize (grid0.coords t) 1
    rw [hi1, hx1]; have := idx2_lt1 i; omega

/-- The corner of block `k` of the result array (`k` = 0, 1) ends at what the accumulator held after point `8 k + 7`. -/
theorem entry_corner (c : Dev nD) (t : Fin cfg0.N) (ht : t.val % 8 = 7) (r : Fin 16) (hr : r.val = t.val / 8 * 8) :
    (dats m 0 c).arrAt 1 cfg0.N (ix2 r (0 : Fin 128)) = runSum (addend m c) t.val := by
  have h := (dats m 0 c).arrAt_forall_of_flushed 1 (Corner m c) (flushed_corner m c) cfg0.N t (ix2 r (0 : Fin 128)) t.isLt
    ((flush0_1 t).mpr ht) (mem_blk t _ (by show _ ≤ r.val; omega) (by show r.val < _; omega))
  refine (h rfl (by show r.val % 8 = 0; omega)).trans ?_
  congr 1
  show r.val + 7 = t.val
  omega

/-- The host lines' result is the common one: the two corners add up to the sum of all of `x`. -/
theorem result_eq (c : Dev nD) :
    Tail.tail ((dats m 0 c).arrAt 1 cfg0.N) (m ((c : Thread nD τ).loc main_arg1)) (m ((c : Thread nD τ).loc main_arg2))
      = Cert.Spec.scaledTotal (xin m c) (m ((c : Thread nD τ).loc main_arg1)) (m ((c : Thread nD τ).loc main_arg2)) := by
  funext i
  rw [Tail.tail_apply, entry_corner m c t0_7 (by decide) (0 : Fin 16) (by decide),
    entry_corner m c t0_15 (by decide) (8 : Fin 16) (by decide)]
  show (runSum (addend m c) 7 + runSum (addend m c) 15) * _ * _ = _
  rw [two_halves]
  rfl

/-- The program's run: every weakly fair execution terminates with the result buffer at the common result of the
    arguments as launched, and the arguments unchanged. -/
theorem run : θ_run defs (onTc (τ := τ) (main (F := Ideal))) ⟨m, fun _ => 0, ρ⟩ fun r => ∀ c : Dev nD,
      r.2.mem ((c.tc : Thread nD τ).loc main_v7)
        = Cert.Spec.scaledTotal (xin m c) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v7 (Pipeline.mem_restRefs_of main_v7 (by decide) (by decide))).trans (Tail.tail_eq m c)).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result
end
-- ==== Proof.RefValue.lean ====
/-
  The reference read as a value: its sum over both axes of `x` from the initial value `0`, times `a`, times `b`,
  is the sum of every entry of `x` (rows, then columns), times `a`, times `b`.
-/
import proofs.«125413_j20572893348677_2_alg».proof.Proof.Gen.ReferenceIdeal.Read
import proofs.«125413_j20572893348677_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's last stage is the common result. -/
theorem ref_eq (x : FVec Ideal S8192x8192 .f32) (a b : FVec Ideal S_ .f32) :
    val_main_v2 (F := Ideal) x a b = Cert.Spec.scaledTotal x a b := by
  funext i
  rw [val_main_v2_apply, val_main_v1_apply, val_main_v0_apply, val_main_cst_apply]
  show (Ideal.ofBits .f32 0x00000000#32 + ∑ j, x j) * a i * b i = _
  rw [Ideal.ofBits_zero_f32, zero_add, sum_idx2]
  rfl

end Cert.ReferenceIdeal.RefValue
end
-- ==== Proof.lean ====
/-
  The certificate of a two-level sum: `sum(x) · a · b` for `x` of 8192 x 8192 numbers and two scalars.

  The kernel walks a 2 x 8 grid. Point `(h, k)` loads rows `512 (8 h + k) … 512 (8 h + k) + 511` of `x`, sums the
  block (each row first, then the 512 row sums) and adds the result to a one-entry accumulator that is cleared at
  `k = 0`; at `k = 7` it writes an 8 x 128 output block holding the accumulator at its corner. The host then adds
  the two corners, entries (0, 0) and (8, 0) of the 16 x 128 result, and multiplies by `a` and by `b`. The reference
  sums `x` over both axes at once and multiplies by `a` and by `b`.

  Over the extended reals addition is commutative and associative with neutral element `0`, so a sum may be taken in
  any grouping: the sixteen block sums, eight per half, add up to the sum of every entry (no finiteness of the
  entries is used). Both programs therefore end at `(∑ x) · a · b` — `Cert.Spec.scaledTotal` — of the same arguments.

  The three frames are the generated ones (the reference's is its generated run with the result dropped); the ideal
  pass rewrote nothing, so `preserves` is `True`; `algebraic` pairs the kernel's run read as a value
  (Proof/Result.lean) with the reference's generated run read through its stages (Proof/RefValue.lean).
-/
import proofs.«125413_j20572893348677_2_alg».proof.Defs
import proofs.«125413_j20572893348677_2_alg».proof.Proof.Gen.Kernel
import proofs.«125413_j20572893348677_2_alg».proof.Proof.Gen.Kernel.Frame
import proofs.«125413_j20572893348677_2_alg».proof.Proof.Gen.KernelIdeal
import proofs.«125413_j20572893348677_2_alg».proof.Proof.Gen.KernelIdeal.Frame
import proofs.«125413_j20572893348677_2_alg».proof.Proof.Gen.ReferenceIdeal
import proofs.«125413_j20572893348677_2_alg».proof.Proof.Gen.ReferenceIdeal.Run
import proofs.«125413_j20572893348677_2_alg».proof.Proof.Gen.ReferenceIdeal.Read
import proofs.«125413_j20572893348677_2_alg».proof.Proof.Gen.Pre_finite_inputs
import proofs.«125413_j20572893348677_2_alg».proof.Proof.Result
import proofs.«125413_j20572893348677_2_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- At the exact extended reals both programs end at `(∑ x) · a · b` of arguments that agree. -/
theorem algebraic : Cert.algebraic_KernelIdeal_ReferenceIdeal := by
  intro m ρ m' ρ' _ hagree
  refine ⟨fun c => Cert.Spec.scaledTotal (Cert.KernelIdeal.Accum.xin m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
